-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  main_v38

def fn_part1 {F : FTy → Type} [FloatOps F] (main_arg5 : FVec F S64x64 .f32) (main_arg6 : FVec F S64x64 .f32) (main_arg7 : FVec F S64 .f32) (main_arg8 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S20000x64 : Shape := ⟨2, ![20000, 64]⟩

abbrev nBuf : Space → Nat
  | .hbm => 53
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x1, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S64x64, .f32⟩
  | .hbm, ⟨30, _⟩ => ⟨S64x64, .f32⟩
  | .hbm, ⟨31, _⟩ => ⟨S1x64, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S1600000x1, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S64x64, .f32⟩
  | .hbm, ⟨50, _⟩ => ⟨S64x64, .f32⟩
  | .hbm, ⟨51, _⟩ => ⟨S1x64, .f32⟩
  | .hbm, ⟨52, _⟩ => ⟨S100000x64, .f32⟩
  | .local _ .vmem, ⟨0, _⟩ => ⟨S20000x64, .f32⟩
  | .local _ .vmem, ⟨1, _⟩ => ⟨S20000x64, .f32⟩
  | .local _ .vmem, ⟨2, _⟩ => ⟨S20000x64, .f32⟩
  | .local _ .vmem, ⟨3, _⟩ => ⟨S20000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S20000x64, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S20000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S20000x64, .f32⟩
  | .local _ .vmem, ⟨17, _⟩ => ⟨S20000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S20000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S20000x64_S64x64_S20000x64_1_0_0_1_n_n_wf : DotDims.WF S20000x64 S64x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S100000x64.size a
  hwx0_0 : ∀ i : grid0.Coords, EltTy.bits .f32 = 32 ∨ (Rect.block (s := S100000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x64.size a ≤ S100000x64.size a
  hwx0_1 : ∀ i : grid0.Coords, EltTy.bits .f32 = 32 ∨ (Rect.block (s := S100000x64) S20000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x64.size a ≤ S100000x64.size a
  hwx0_5 : ∀ i : grid0.Coords, EltTy.bits .f32 = 32 ∨ (Rect.block (s := S100000x64) S20000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x64.size a ≤ S100000x64.size a
  hwx1_1 : ∀ i : grid1.Coords, EltTy.bits .f32 = 32 ∨ (Rect.block (s := S100000x64) S20000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S20000x64.size a ≤ S100000x64.size a
  hwx1_5 : ∀ i : grid1.Coords, EltTy.bits .f32 = 32 ∨ (Rect.block (s := S100000x64) S20000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf

abbrev win0_0 : Pipeline.Window sig grid0 :=
  Pipeline.Window.ofSpec (Memref.whole main_v16) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S20000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S20000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S20000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S20000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x1, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S64x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S64x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S64x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S64x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩
abbrev main_c_1 : Ref sig .tc := ⟨.hbm, 40, rfl⟩
abbrev main_v26 : Ref sig .tc := ⟨.hbm, 41, rfl⟩
abbrev main_v27 : Ref sig .tc := ⟨.hbm, 42, rfl⟩
abbrev main_c_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LayerRun.lean ====
/-
  The kernel program's run with its result named.
  The program is four segments: host operations, the first kernel, host operations, the second kernel. The
  generated frame module fixes what every buffer holds at each boundary between segments (`W0` at launch,
  `W1` … `W4` after each segment in turn) and proves each segment carries one boundary's contents to the next.
  Running the segments from the launch therefore ends with every buffer at `W4`; read at the result buffer
  that is the second kernel's result array after its last grid point, and read at an argument it is the
  argument as launched.
-/
import proofs.«108997_j70153995813010_1_alg».proof.Proof.Gen.KernelIdeal.Frame

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and the nine arguments as launched. -/
theorem run_named : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit (pcfgs (F := F)) adm (pdats m ρ) () cellOf_inj emb₁ defs₀ 𝒱₀ L lv m ρ main (segs m ρ)
    (fun c Q => by rw [main_run m ρ c]) ?nodup (O₀ := 0) (hL := fun _ _ => rfl) (G := fun _ => iprop(emp))
    (u₀ := initOf (Pipeline.cells cfgs cellOf_inj) (Pipeline.launchToks cfgs cellOf_inj)) ?launch
    (T₀ := fun c => iprop(StableHlo.held (c : Thread nD τ) (Pipeline.ucRefs τ sig) (W0 m ρ c) ∗ R c)) (Tₙ := Tₙ m ρ)
    ⟨fun _ => .rfl, fun _ => .rfl, fun _ => .rfl, fun _ => .rfl, fun _ => .rfl⟩ ?first
    (QY := fun c s => ∀ b ∈ Pipeline.ucRefs τ sig, s.mem (((c : Thread nD τ)).1, b) = W4 m ρ c b) ?last ?read
  case nodup =>
    -- the two kernels are two different pipelines
    simp only [segs, Pipeline.Seg.pipes_host, Pipeline.Seg.pipes_region, Pipeline.Seg.pipes_nil]; decide
  case launch =>
    -- the launch element is the pipelines' own; no core needs a ghost resource beside it
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    · -- a separating conjunction of `emp` over the cores is `emp`
      iapply (show (BI.emp : sProp 𝕄) ⊢ bigSep Finset.univ (fun _ : Dev nD => (BI.emp : sProp 𝕄)) from by
        rw [BI.bigSep_emp_const])
      iempintro
  case first =>
    -- at launch every core holds its buffers at the launch memory, its generator register, and owes nothing
    refine Pipeline.initEach L lv fun c => ?_
    rw [Pipeline.unscopedBufs_held c (W0 m ρ c)]
    iintro ⟨⟨Hbufs, -, Howes, -, Hreg, -⟩, -⟩
    imodintro
    isplitl [Hbufs]
    · iexact Hbufs
    · isplitl [Hreg]
      · iexists _; iexact Hreg
      · iexists ∅; iexact Howes
  case last =>
    -- holding every buffer at `W4` beside a final state says the state's memory is `W4` there
    intro c s'
    iintro ⟨⟨Hbufs, -⟩, Hstate⟩
    unfold StableHlo.held
    imodintro
    iapply (pointsTo_read_all (Pipeline.ucRefs τ sig) (fun b => (((c : Thread nD τ)).1, b)) (W4 m ρ c) s')
    isplitl [Hbufs] <;> iassumption
  case read =>
    intro s h c
    exact ⟨h c _ (mem_uc main_v37 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩

end Cert.KernelIdeal.Layer

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.EpilogueCell.lean ====
/-
  One element of a graph-convolution layer's dense part.
  For row a and column b the layer's output is
      max( Σ_k agg(a,k)·wrelT(k,b) + Σ_k h(a,k)·wrootT(k,b) + bias(0,b) , 0 )
  over the extended reals, where agg is the aggregated neighbourhood, h the node features, wrelT and wrootT
  the two weight matrices already transposed to [in, out], and bias a [1, out] row. The function `cell` states
  that element for any number of rows, so that the same function speaks of a 20000-row block and of the whole
  100000-row array. The body of each of the two kernels computes exactly this at every element of its block:
  two matrix products into zero accumulators, their sum, the bias row repeated down the rows, and the maximum
  with zero.
-/
import proofs.«108997_j70153995813010_1_alg».proof.Proof.Gen.KernelIdeal.Skeleton
import proofs.«108997_j70153995813010_1_alg».proof.Proof.LibPlainDot
import Idealize.ShloMosaic.Lib.Pipeline.Value
import Idealize.ShloMosaic.Lib.ValueIdx
import Idealize.ShloMosaic.PureOps.Ideal.Laws

noncomputable section

namespace Cert.KernelIdeal.Layer

open Idealize.ShloMosaic Idealize.ShloMosaic.ValueIdx Cert.KernelIdeal Cert.KernelIdeal.Gen

/-- The layer's element at row `i 0`, column `i 1`, for `n` rows. -/
def cell (n : Nat) (agg h : (⟨2, ![n, 64]⟩ : Shape).Idx → EReal) (wrelT wrootT : (⟨2, ![64, 64]⟩ : Shape).Idx → EReal)
    (bias : (⟨2, ![1, 64]⟩ : Shape).Idx → EReal) (i : (⟨2, ![n, 64]⟩ : Shape).Idx) : EReal :=
  max ((∑ k : Fin 64, agg (ix2 (i 0) k) * wrelT (ix2 k (i 1))) + (∑ k : Fin 64, h (ix2 (i 0) k) * wrootT (ix2 k (i 1)))
    + bias (ix2 (0 : Fin 1) (i 1))) 0

/-- The kernels' matrix product is the plain [20000,64] by [64,64] one. -/
theorem dot_plain : dot_S20000x64_S64x64_S20000x64_1_0_0_1_n_n = DotDims.plain 20000 64 64 := rfl

/-- The bias row repeated down the rows reads the row's entry of the column. -/
theorem bias_rows (b : Vec Ideal S1x64 .f32) (j : S20000x64.Idx) :
    broadcastTo S20000x64 b Facts₀.broadcasts_S1x64_S20000x64 j = b (ix2 (0 : Fin 1) (j 1)) :=
  broadcastTo_apply b _ j (ix2 (0 : Fin 1) (j 1)) (fun a => match a with
    | ⟨0, _⟩ => by show (0 : Nat) = if (1 : Nat) = 1 then 0 else _; rw [if_pos rfl]
    | ⟨1, _⟩ => by show (j 1).val = if (64 : Nat) = 1 then 0 else (j ⟨1 + (2 - 2), _⟩).val; rw [if_neg (by decide)]; rfl)

/-- The first kernel's stored value, element by element. -/
theorem pay0_apply (x0 x1 : Vec Ideal S20000x64 .f32) (w0 w1 : Vec Ideal S64x64 .f32) (b : Vec Ideal S1x64 .f32)
    (j : S20000x64.Idx) : k0_pay1 (F := Ideal) x0 x1 w0 w1 b j = cell 20000 x0 x1 w0 w1 b j := by
  unfold k0_pay1 cell
  simp only [shapeCast_self]
  rw [maximumf_apply, addf_apply, addf_apply, bias_rows, broadcast_apply, dot_plain,
    Cert.LibPlainDot.matmul_plain, Cert.LibPlainDot.matmul_plain]
  exact congrArg (max _) Ideal.ofBits_zero_f32

/-- The second kernel's stored value is the same function of its blocks. -/
theorem pay1_apply (x0 x1 : Vec Ideal S20000x64 .f32) (w0 w1 : Vec Ideal S64x64 .f32) (b : Vec Ideal S1x64 .f32)
    (j : S20000x64.Idx) : k1_pay1 (F := Ideal) x0 x1 w0 w1 b j = cell 20000 x0 x1 w0 w1 b j := by
  unfold k1_pay1 cell
  simp only [shapeCast_self]
  rw [maximumf_apply, addf_apply, addf_apply, bias_rows, broadcast_apply, dot_plain,
    Cert.LibPlainDot.matmul_plain, Cert.LibPlainDot.matmul_plain]
  exact congrArg (max _) Ideal.ofBits_zero_f32

end Cert.KernelIdeal.Layer

end
-- ==== Proof.LayerBlocks0.lean ====
/-
  The first kernel's result array, whole.
  The grid has five points; point t works on rows 20000·t … 20000·t + 19999 of the aggregate and of the node
  features, and on the whole of the two weight matrices and of the bias row, and writes back rows
  20000·t … 20000·t + 19999 of the result. What it writes back is `cell` of its blocks (EpilogueCell), and an
  element of a block is the element of the array at the block's offset, so the block written back at point t is
  block t of ONE function of the five arrays as the kernel finds them: `cell 100000` of those arrays. The five
  row blocks cover the 100000 rows (row r lies in block r / 20000), so after the last point the result array is
  that function.
-/
import proofs.«108997_j70153995813010_1_alg».proof.Proof.Gen.KernelIdeal.Frame
import proofs.«108997_j70153995813010_1_alg».proof.Proof.EpilogueCell
import Idealize.ShloMosaic.Lib.Pipeline.Value

noncomputable section

namespace Cert.KernelIdeal.Layer

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at point t: the three row-blocked windows at block row t, column block 0;
    the weights and the bias at block (0, 0). -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p, column k of the aggregate's block at point t is row 20000·t + p, column k of the aggregate. -/
theorem agg_block0 (c : Dev nD) (t : Fin cfg0.N) (p : Fin 20000) (k : Fin 64) (i : S100000x64.Idx)
    (h0 : (i 0).val = 20000 * t.val + p.val) (h1 : (i 1).val = k.val) :
    (iblk0 V c 0 t : Vec Ideal S20000x64 .f32) (ix2 p k) = (V c main_v16 : S100000x64.Idx → EReal) i := by
  obtain ⟨e0, e1, -⟩ := block_index0 t
  unfold iblk0
  rw [View.read_apply]
  show V c main_v16 _ = V c main_v16 _
  refine congrArg (V c main_v16) (funext fun a => Fin.ext ?_)
  match a with
  | ⟨0, _⟩ => show win0_0.index t (0 : Fin 2) * 20000 + 1 * p.val = (i 0).val; rw [e0, h0]; omega
  | ⟨1, _⟩ => show win0_0.index t (1 : Fin 2) * 64 + 1 * k.val = (i 1).val; rw [e1, h1]; omega

/-- The same for the node features. -/
theorem feat_block0 (c : Dev nD) (t : Fin cfg0.N) (p : Fin 20000) (k : Fin 64) (i : S100000x64.Idx)
    (h0 : (i 0).val = 20000 * t.val + p.val) (h1 : (i 1).val = k.val) :
    (iblk0 V c 1 t : Vec Ideal S20000x64 .f32) (ix2 p k) = (V c main_arg0 : S100000x64.Idx → EReal) i := by
  obtain ⟨-, -, e0, e1, -⟩ := block_index0 t
  unfold iblk0
  rw [View.read_apply]
  show V c main_arg0 _ = V c main_arg0 _
  refine congrArg (V c main_arg0) (funext fun a => Fin.ext ?_)
  match a with
  | ⟨0, _⟩ => show win0_1.index t (0 : Fin 2) * 20000 + 1 * p.val = (i 0).val; rw [e0, h0]; omega
  | ⟨1, _⟩ => show win0_1.index t (1 : Fin 2) * 64 + 1 * k.val = (i 1).val; rw [e1, h1]; omega

/-- The first weight matrix's one block is the matrix. -/
theorem wrel_block0 (c : Dev nD) (t : Fin cfg0.N) (y : S64x64.Idx) :
    (iblk0 V c 2 t : Vec Ideal S64x64 .f32) y = (V c main_v17 : S64x64.Idx → EReal) y := by
  obtain ⟨-, -, -, -, e0, e1, -⟩ := block_index0 t
  unfold iblk0
  rw [View.read_apply]
  show V c main_v17 _ = V c main_v17 _
  refine congrArg (V c main_v17) (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The bias row's one block is the row. -/
theorem bias_block0 (c : Dev nD) (t : Fin cfg0.N) (y : S1x64.Idx) :
    (iblk0 V c 3 t : Vec Ideal S1x64 .f32) y = (V c main_v19 : S1x64.Idx → EReal) y := by
  obtain ⟨-, -, -, -, -, -, e0, e1, -⟩ := block_index0 t
  unfold iblk0
  rw [View.read_apply]
  show V c main_v19 _ = V c main_v19 _
  refine congrArg (V c main_v19) (funext fun a => Fin.ext ?_)
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The second weight matrix's one block is the matrix. -/
theorem wroot_block0 (c : Dev nD) (t : Fin cfg0.N) (y : S64x64.Idx) :
    (iblk0 V c 4 t : Vec Ideal S64x64 .f32) y = (V c main_v18 : S64x64.Idx → EReal) y := by
  obtain ⟨-, -, -, -, -, -, -, -, e0, e1, -⟩ := block_index0 t
  unfold iblk0
  rw [View.read_apply]
  show V c main_v18 _ = V c main_v18 _
  refine congrArg (V c main_v18) (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The layer's output as one function of the five arrays the first kernel reads. -/
abbrev layer0 (c : Dev nD) : S100000x64.Idx → EReal :=
  cell 100000 (V c main_v16) (V c main_arg0) (V c main_v17) (V c main_v18) (V c main_v19)

/-- `cell` of the blocks at point t, at row p of the block, is `cell` of the arrays at row 20000·t + p. -/
theorem cell_block0 (c : Dev nD) (t : Fin cfg0.N) (j : S20000x64.Idx) (i : S100000x64.Idx)
    (h0 : (i 0).val = 20000 * t.val + (j 0).val) (h1 : (i 1).val = (j 1).val) :
    cell 20000 (iblk0 V c 0 t) (iblk0 V c 1 t) (iblk0 V c 2 t) (iblk0 V c 4 t) (iblk0 V c 3 t) j = layer0 V c i := by
  have e1 : i 1 = j 1 := Fin.ext h1
  unfold layer0 cell
  rw [e1]
  refine congrArg (max · 0) (congr (congrArg HAdd.hAdd (congr (congrArg HAdd.hAdd ?_) ?_)) ?_)
  · refine Finset.sum_congr rfl fun k _ => ?_
    rw [agg_block0 V c t (j 0) k (ix2 (i 0) k) h0 rfl, wrel_block0]
  · refine Finset.sum_congr rfl fun k _ => ?_
    rw [feat_block0 V c t (j 0) k (ix2 (i 0) k) h0 rfl, wroot_block0]
  · exact bias_block0 V c t _

/-- An index of the result array is in point t's block iff its row is one of the block's rows. -/
theorem mem_block0 (t : Fin cfg0.N) (i : S100000x64.Idx) :
    i ∈ ((cfg0.win 5).blk t).view.set ↔ ∀ a : Fin 2, win0_5.index t a * S20000x64.size a ≤ (i a).val
      ∧ (i a).val < win0_5.index t a * S20000x64.size a + S20000x64.size a := by
  show i ∈ ((View.whole main_v20).slice (win0_5.rect t)).set ↔ _
  rw [View.set_slice_whole, Rect.mem_set_unit]
  exact Iff.rfl

/-- What point t writes back is block t of `layer0`. -/
theorem flushed0 (c : Dev nD) (t : Fin cfg0.N) :
    (dat0 V c).flushed 5 t = ((cfg0.win 5).blk t).view.read (Elt Ideal) (layer0 V c) := by
  obtain ⟨-, -, -, -, -, -, -, -, -, -, e0, e1⟩ := block_index0 t
  show (cfg0.win 5).cut (grid0.coords t) ((dat0 V c).after 5 t) = _
  rw [after0_5]
  unfold out0_5
  rw [View.canon_unit_zero zero_offsets]
  simp only [View.ld_unit_zero (S := S20000x64) zero_offsets, View.ld_unit_zero (S := S64x64) zero_offsets,
    View.ld_unit_zero (S := S1x64) zero_offsets]
  funext j
  rw [View.read_apply]
  refine (pay0_apply _ _ _ _ _ j).trans (cell_block0 V c t j _ ?_ ?_)
  · show win0_5.index t (0 : Fin 2) * 20000 + 1 * (j 0).val = 20000 * t.val + (j 0).val; rw [e0]; omega
  · show win0_5.index t (1 : Fin 2) * 64 + 1 * (j 1).val = (j 1).val; rw [e1]; omega

/-- After the last point the result array is `layer0`. -/
theorem result0 (c : Dev nD) : (dat0 V c).arrAt 5 cfg0.N = layer0 V c :=
  (dat0 V c).arrAt_eq_of_cover 5 (layer0 V c) (fun t _ => flushed0 V c t) fun i => by
    have hi0 : (i 0).val < 100000 := (i 0).isLt
    have hi1 : (i 1).val < 64 := (i 1).isLt
    have hN : cfg0.N = 5 := N_0
    refine ⟨⟨(i 0).val / 20000, by rw [hN]; omega⟩, flush0_5 _, ?_⟩
    obtain ⟨-, -, -, -, -, -, -, -, -, -, e0, e1⟩ := block_index0 ⟨(i 0).val / 20000, by rw [hN]; omega⟩
    rw [mem_block0]
    intro a
    match a with
    | ⟨0, _⟩ =>
      show win0_5.index _ (0 : Fin 2) * 20000 ≤ (i 0).val ∧ (i 0).val < win0_5.index _ (0 : Fin 2) * 20000 + 20000
      rw [e0]; show (i 0).val / 20000 * 20000 ≤ (i 0).val ∧ (i 0).val < (i 0).val / 20000 * 20000 + 20000; omega
    | ⟨1, _⟩ =>
      show win0_5.index _ (1 : Fin 2) * 64 ≤ (i 1).val ∧ (i 1).val < win0_5.index _ (1 : Fin 2) * 64 + 64
      rw [e1]; omega

end Cert.KernelIdeal.Layer

end
-- ==== Proof.LayerBlocks1.lean ====
/-
  The second kernel's result array, whole.
  The second kernel is the first one again on other arrays: point t of its five works on rows
  20000·t … 20000·t + 19999 of the second aggregate and of the first layer's output, on the whole of the second
  layer's transposed weights and bias row, and writes back the same rows of the program's result. As for the
  first kernel, what point t writes back is block t of `cell 100000` of the five arrays as the kernel finds
  them, and the five row blocks cover the array.
-/
import proofs.«108997_j70153995813010_1_alg».proof.Proof.Gen.KernelIdeal.Frame
import proofs.«108997_j70153995813010_1_alg».proof.Proof.EpilogueCell
import proofs.«108997_j70153995813010_1_alg».proof.Proof.LayerBlocks0
import Idealize.ShloMosaic.Lib.Pipeline.Value

noncomputable section

namespace Cert.KernelIdeal.Layer

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- Where each window's block sits at point t: the three row-blocked windows at block row t, column block 0;
    the weights and the bias at block (0, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p, column k of the aggregate's block at point t is row 20000·t + p, column k of the aggregate. -/
theorem agg_block1 (c : Dev nD) (t : Fin cfg1.N) (p : Fin 20000) (k : Fin 64) (i : S100000x64.Idx)
    (h0 : (i 0).val = 20000 * t.val + p.val) (h1 : (i 1).val = k.val) :
    (iblk1 V c 0 t : Vec Ideal S20000x64 .f32) (ix2 p k) = (V c main_v33 : S100000x64.Idx → EReal) i := by
  obtain ⟨e0, e1, -⟩ := block_index1 t
  unfold iblk1
  rw [View.read_apply]
  show V c main_v33 _ = V c main_v33 _
  refine congrArg (V c main_v33) (funext fun a => Fin.ext ?_)
  match a with
  | ⟨0, _⟩ => show win1_0.index t (0 : Fin 2) * 20000 + 1 * p.val = (i 0).val; rw [e0, h0]; omega
  | ⟨1, _⟩ => show win1_0.index t (1 : Fin 2) * 64 + 1 * k.val = (i 1).val; rw [e1, h1]; omega

/-- The same for the first layer's output, the second layer's features. -/
theorem feat_block1 (c : Dev nD) (t : Fin cfg1.N) (p : Fin 20000) (k : Fin 64) (i : S100000x64.Idx)
    (h0 : (i 0).val = 20000 * t.val + p.val) (h1 : (i 1).val = k.val) :
    (iblk1 V c 1 t : Vec Ideal S20000x64 .f32) (ix2 p k) = (V c main_v20 : S100000x64.Idx → EReal) i := by
  obtain ⟨-, -, e0, e1, -⟩ := block_index1 t
  unfold iblk1
  rw [View.read_apply]
  show V c main_v20 _ = V c main_v20 _
  refine congrArg (V c main_v20) (funext fun a => Fin.ext ?_)
  match a with
  | ⟨0, _⟩ => show win1_1.index t (0 : Fin 2) * 20000 + 1 * p.val = (i 0).val; rw [e0, h0]; omega
  | ⟨1, _⟩ => show win1_1.index t (1 : Fin 2) * 64 + 1 * k.val = (i 1).val; rw [e1, h1]; omega

/-- The first weight matrix's one block is the matrix. -/
theorem wrel_block1 (c : Dev nD) (t : Fin cfg1.N) (y : S64x64.Idx) :
    (iblk1 V c 2 t : Vec Ideal S64x64 .f32) y = (V c main_v34 : S64x64.Idx → EReal) y := by
  obtain ⟨-, -, -, -, e0, e1, -⟩ := block_index1 t
  unfold iblk1
  rw [View.read_apply]
  show V c main_v34 _ = V c main_v34 _
  refine congrArg (V c main_v34) (funext fun a => Fin.ext ?_)
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The bias row's one block is the row. -/
theorem bias_block1 (c : Dev nD) (t : Fin cfg1.N) (y : S1x64.Idx) :
    (iblk1 V c 3 t : Vec Ideal S1x64 .f32) y = (V c main_v36 : S1x64.Idx → EReal) y := by
  obtain ⟨-, -, -, -, -, -, e0, e1, -⟩ := block_index1 t
  unfold iblk1
  rw [View.read_apply]
  show V c main_v36 _ = V c main_v36 _
  refine congrArg (V c main_v36) (funext fun a => Fin.ext ?_)
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The second weight matrix's one block is the matrix. -/
theorem wroot_block1 (c : Dev nD) (t : Fin cfg1.N) (y : S64x64.Idx) :
    (iblk1 V c 4 t : Vec Ideal S64x64 .f32) y = (V c main_v35 : S64x64.Idx → EReal) y := by
  obtain ⟨-, -, -, -, -, -, -, -, e0, e1, -⟩ := block_index1 t
  unfold iblk1
  rw [View.read_apply]
  show V c main_v35 _ = V c main_v35 _
  refine congrArg (V c main_v35) (funext fun a => Fin.ext ?_)
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The layer's output as one function of the five arrays the second kernel reads. -/
abbrev layer1 (c : Dev nD) : S100000x64.Idx → EReal :=
  cell 100000 (V c main_v33) (V c main_v20) (V c main_v34) (V c main_v35) (V c main_v36)

/-- `cell` of the blocks at point t, at row p of the block, is `cell` of the arrays at row 20000·t + p. -/
theorem cell_block1 (c : Dev nD) (t : Fin cfg1.N) (j : S20000x64.Idx) (i : S100000x64.Idx)
    (h0 : (i 0).val = 20000 * t.val + (j 0).val) (h1 : (i 1).val = (j 1).val) :
    cell 20000 (iblk1 V c 0 t) (iblk1 V c 1 t) (iblk1 V c 2 t) (iblk1 V c 4 t) (iblk1 V c 3 t) j = layer1 V c i := by
  have e1 : i 1 = j 1 := Fin.ext h1
  unfold layer1 cell
  rw [e1]
  refine congrArg (max · 0) (congr (congrArg HAdd.hAdd (congr (congrArg HAdd.hAdd ?_) ?_)) ?_)
  · refine Finset.sum_congr rfl fun k _ => ?_
    rw [agg_block1 V c t (j 0) k (ix2 (i 0) k) h0 rfl, wrel_block1]
  · refine Finset.sum_congr rfl fun k _ => ?_
    rw [feat_block1 V c t (j 0) k (ix2 (i 0) k) h0 rfl, wroot_block1]
  · exact bias_block1 V c t _

/-- An index of the result array is in point t's block iff its row is one of the block's rows. -/
theorem mem_block1 (t : Fin cfg1.N) (i : S100000x64.Idx) :
    i ∈ ((cfg1.win 5).blk t).view.set ↔ ∀ a : Fin 2, win1_5.index t a * S20000x64.size a ≤ (i a).val
      ∧ (i a).val < win1_5.index t a * S20000x64.size a + S20000x64.size a := by
  show i ∈ ((View.whole main_v37).slice (win1_5.rect t)).set ↔ _
  rw [View.set_slice_whole, Rect.mem_set_unit]
  exact Iff.rfl

/-- What point t writes back is block t of `layer1`. -/
theorem flushed1 (c : Dev nD) (t : Fin cfg1.N) :
    (dat1 V c).flushed 5 t = ((cfg1.win 5).blk t).view.read (Elt Ideal) (layer1 V c) := by
  obtain ⟨-, -, -, -, -, -, -, -, -, -, e0, e1⟩ := block_index1 t
  show (cfg1.win 5).cut (grid1.coords t) ((dat1 V c).after 5 t) = _
  rw [after1_5]
  unfold out1_5
  rw [View.canon_unit_zero zero_offsets]
  simp only [View.ld_unit_zero (S := S20000x64) zero_offsets, View.ld_unit_zero (S := S64x64) zero_offsets,
    View.ld_unit_zero (S := S1x64) zero_offsets]
  funext j
  rw [View.read_apply]
  refine (pay1_apply _ _ _ _ _ j).trans (cell_block1 V c t j _ ?_ ?_)
  · show win1_5.index t (0 : Fin 2) * 20000 + 1 * (j 0).val = 20000 * t.val + (j 0).val; rw [e0]; omega
  · show win1_5.index t (1 : Fin 2) * 64 + 1 * (j 1).val = (j 1).val; rw [e1]; omega

/-- After the last point the result array is `layer1`. -/
theorem result1 (c : Dev nD) : (dat1 V c).arrAt 5 cfg1.N = layer1 V c :=
  (dat1 V c).arrAt_eq_of_cover 5 (layer1 V c) (fun t _ => flushed1 V c t) fun i => by
    have hi0 : (i 0).val < 100000 := (i 0).isLt
    have hi1 : (i 1).val < 64 := (i 1).isLt
    have hN : cfg1.N = 5 := N_1
    refine ⟨⟨(i 0).val / 20000, by rw [hN]; omega⟩, flush1_5 _, ?_⟩
    obtain ⟨-, -, -, -, -, -, -, -, -, -, e0, e1⟩ := block_index1 ⟨(i 0).val / 20000, by rw [hN]; omega⟩
    rw [mem_block1]
    intro a
    match a with
    | ⟨0, _⟩ =>
      show win1_5.index _ (0 : Fin 2) * 20000 ≤ (i 0).val ∧ (i 0).val < win1_5.index _ (0 : Fin 2) * 20000 + 20000
      rw [e0]; show (i 0).val / 20000 * 20000 ≤ (i 0).val ∧ (i 0).val < (i 0).val / 20000 * 20000 + 20000; omega
    | ⟨1, _⟩ =>
      show win1_5.index _ (1 : Fin 2) * 64 ≤ (i 1).val ∧ (i 1).val < win1_5.index _ (1 : Fin 2) * 64 + 64
      rw [e1]; omega

end Cert.KernelIdeal.Layer

end
-- ==== Proof.GraphConv.lean ====
/-
  Two graph-convolution layers, as one function of the nine arguments.
  The edge list is a [2, E] integer array: row 0 the source node of each edge, row 1 its destination. A layer
  first AGGREGATES: it takes the features of each edge's source node (an index below zero counted from the end),
  scales them by the edge's weight, and adds them, from zero, into the row of the edge's destination node. Then
  every row a of the output is
      max( Σ_k agg(a,k)·w_rel(b,k) + Σ_k h(a,k)·w_root(b,k) + bias(b) , 0 )      for each column b,
  which is `cell` of the aggregate, the features, the two weight matrices transposed and the bias as a one-row
  matrix. The network applies the layer twice, the second time to the first layer's output, with the same edges
  and edge weights and its own weights and bias. The aggregate is kept as the host operations that compute it:
  nothing below looks inside a gather or a scatter.
-/
import proofs.«108997_j70153995813010_1_alg».proof.Proof.EpilogueCell

noncomputable section

namespace Cert.KernelIdeal.Layer

open Idealize.ShloMosaic Idealize.ShloMosaic.ValueIdx Cert.KernelIdeal

/-- An array of the given shape and element type at the ideal values. -/
abbrev Arr (S : Shape) (e : EltTy) : Type := (⟨S, e⟩ : BufTy).Contents (Elt Ideal)

/-- Row 0 of the edge list: each edge's source node. -/
def srcOf (ei : Arr S2x1600000 .i32) : Arr S1600000 .i32 :=
  shapeCast S1600000 (extractStridedSlice S1x1600000 ![0, 0] ei Facts₀.slices_S2x1600000_S1x1600000_0_0) Facts₀.shapeCasts_S1x1600000_S1600000

/-- Row 1 of the edge list: each edge's destination node. -/
def dstOf (ei : Arr S2x1600000 .i32) : Arr S1600000 .i32 :=
  shapeCast S1600000 (extractStridedSlice S1x1600000 ![1, 0] ei Facts₀.slices_S2x1600000_S1x1600000_1_0) Facts₀.shapeCasts_S1x1600000_S1600000

/-- The aggregate of the features `h` over the edges: gathered at the sources, scaled by the edge weights, added
    into the destinations' rows from zero. -/
def aggregate (h : Arr S100000x64 .f32) (src dst : Arr S1600000 .i32) (ew : Arr S1600000 .f32) : Arr S100000x64 .f32 :=
  Host.scatterAdd (F := Ideal) scatter_S100000x64_S1600000x1_S1600000x64_1_0_0_1
    (broadcastInDim S100000x64 ![] Facts₀.bcast_S_S100000x64 (constant (F := Ideal) S_ .f32 0x00000000#32))
    (broadcastInDim S1600000x1 ![0] Facts₀.bcast_S1600000_S1600000x1_0 dst)
    (mulf (F := Ideal)
      (Host.gather gather_S100000x64_S1600000x1_S1600000x64_1_0_n_n_0_1_164 h
        (broadcastInDim S1600000x1 ![0] Facts₀.bcast_S1600000_S1600000x1_0
          (select (cmpi .slt src (broadcastInDim S1600000 ![] Facts₀.bcast_S_S1600000 (constantI S_ 32 0#32)))
            (addi src (broadcastInDim S1600000 ![] Facts₀.bcast_S_S1600000 (constantI S_ 32 100000#32))) src)))
      (broadcastInDim S1600000x64 ![0, 1] Facts₀.bcast_S1600000x1_S1600000x64_0_1
        (broadcastInDim S1600000x1 ![0] Facts₀.bcast_S1600000_S1600000x1_0 ew)))

/-- A weight matrix [out, in] transposed to [in, out]. -/
abbrev transposed (w : Arr S64x64 .f32) : Arr S64x64 .f32 := transpose S64x64 [1, 0] w Facts₀.transposes_S64x64_S64x64_1_0

/-- A bias vector as a one-row matrix. -/
abbrev asRow (b : Arr S64 .f32) : Arr S1x64 .f32 := shapeCast S1x64 b Facts₀.shapeCasts_S64_S1x64

/-- One layer. -/
def conv (h : Arr S100000x64 .f32) (src dst : Arr S1600000 .i32) (ew : Arr S1600000 .f32)
    (wrel : Arr S64x64 .f32) (b : Arr S64 .f32) (wroot : Arr S64x64 .f32) : Arr S100000x64 .f32 :=
  cell 100000 (aggregate h src dst ew) h (transposed wrel) (transposed wroot) (asRow b)

/-- The two layers. -/
def net (x : Arr S100000x64 .f32) (ei : Arr S2x1600000 .i32) (ew : Arr S1600000 .f32)
    (w1rel : Arr S64x64 .f32) (b1 : Arr S64 .f32) (w1root : Arr S64x64 .f32)
    (w2rel : Arr S64x64 .f32) (b2 : Arr S64 .f32) (w2root : Arr S64x64 .f32) : Arr S100000x64 .f32 :=
  conv (conv x (srcOf ei) (dstOf ei) ew w1rel b1 w1root) (srcOf ei) (dstOf ei) ew w2rel b2 w2root

end Cert.KernelIdeal.Layer

end
-- ==== Proof.LayerHost.lean ====
/-
  The kernel program's result is the two-layer network of its arguments.
  Before the first kernel the host operations compute, from the arguments as launched, the aggregate of the node
  features over the edges, the two weight matrices transposed, and the bias as a one-row matrix; the node
  features are an argument. The first kernel's result array is `cell` of those five arrays (LayerBlocks0): the
  first layer's output. The host operations between the kernels leave that array alone, recompute the aggregate
  from it with the same edges and edge weights, and transpose and reshape the second layer's weights and bias;
  the second kernel's result array is `cell` of those (LayerBlocks1): the second layer applied to the first's
  output.
-/
import proofs.«108997_j70153995813010_1_alg».proof.Proof.Gen.KernelIdeal.Frame
import proofs.«108997_j70153995813010_1_alg».proof.Proof.LayerBlocks0
import proofs.«108997_j70153995813010_1_alg».proof.Proof.LayerBlocks1
import proofs.«108997_j70153995813010_1_alg».proof.Proof.GraphConv
import Idealize.ShloMosaic.Lib.StableHlo.Run

set_option maxRecDepth 16384

noncomputable section

namespace Cert.KernelIdeal.Layer

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## What the first kernel finds -/

/-- The edges' source nodes, computed before the first kernel. -/
theorem entry_src (c : Dev nD) :
    (W1 m ρ c (Proc.devRef .tc main_v1) : Arr S1600000 .i32) = srcOf (m ((c.tc : Thread nD τ).loc main_arg1)) := by
  show StableHlo.after hostOps0 (W0 m ρ c) (Proc.devRef .tc main_v1) = _
  dsimp only [hostOps0]
  after_results
  rfl

/-- The edges' destination nodes. -/
theorem entry_dst (c : Dev nD) :
    (W1 m ρ c (Proc.devRef .tc main_v3) : Arr S1600000 .i32) = dstOf (m ((c.tc : Thread nD τ).loc main_arg1)) := by
  show StableHlo.after hostOps0 (W0 m ρ c) (Proc.devRef .tc main_v3) = _
  dsimp only [hostOps0]
  after_results
  rfl

/-- The edge weights are untouched by the first host operations. -/
theorem entry_ew (c : Dev nD) :
    (W1 m ρ c (Proc.devRef .tc main_arg2) : Arr S1600000 .f32) = m ((c.tc : Thread nD τ).loc main_arg2) := by
  show StableHlo.after hostOps0 (W0 m ρ c) (Proc.devRef .tc main_arg2) = _
  dsimp only [hostOps0]
  after_results

/-- The second layer's weights and bias are untouched by the first host operations. -/
theorem entry_w2rel (c : Dev nD) :
    (W1 m ρ c (Proc.devRef .tc main_arg6) : Arr S64x64 .f32) = m ((c.tc : Thread nD τ).loc main_arg6) := by
  show StableHlo.after hostOps0 (W0 m ρ c) (Proc.devRef .tc main_arg6) = _
  dsimp only [hostOps0]
  after_results
theorem entry_b2 (c : Dev nD) :
    (W1 m ρ c (Proc.devRef .tc main_arg7) : Arr S64 .f32) = m ((c.tc : Thread nD τ).loc main_arg7) := by
  show StableHlo.after hostOps0 (W0 m ρ c) (Proc.devRef .tc main_arg7) = _
  dsimp only [hostOps0]
  after_results
theorem entry_w2root (c : Dev nD) :
    (W1 m ρ c (Proc.devRef .tc main_arg8) : Arr S64x64 .f32) = m ((c.tc : Thread nD τ).loc main_arg8) := by
  show StableHlo.after hostOps0 (W0 m ρ c) (Proc.devRef .tc main_arg8) = _
  dsimp only [hostOps0]
  after_results

set_option maxHeartbeats 2000000 in
/-- The aggregate of the node features. -/
theorem entry0_agg (c : Dev nD) :
    (V1 m ρ c main_v16 : Arr S100000x64 .f32) = aggregate (m ((c.tc : Thread nD τ).loc main_arg0))
      (srcOf (m ((c.tc : Thread nD τ).loc main_arg1))) (dstOf (m ((c.tc : Thread nD τ).loc main_arg1)))
      (m ((c.tc : Thread nD τ).loc main_arg2)) := by
  show StableHlo.after hostOps0 (W0 m ρ c) (Proc.devRef .tc main_v16) = _
  dsimp only [hostOps0]
  after_results_simp
  rfl

/-- The node features. -/
theorem entry0_feat (c : Dev nD) :
    (V1 m ρ c main_arg0 : Arr S100000x64 .f32) = m ((c.tc : Thread nD τ).loc main_arg0) := by
  show StableHlo.after hostOps0 (W0 m ρ c) (Proc.devRef .tc main_arg0) = _
  dsimp only [hostOps0]
  after_results

/-- The first layer's weights, transposed, and its bias as a row. -/
theorem entry0_wrel (c : Dev nD) :
    (V1 m ρ c main_v17 : Arr S64x64 .f32) = transposed (m ((c.tc : Thread nD τ).loc main_arg3)) := by
  show StableHlo.after hostOps0 (W0 m ρ c) (Proc.devRef .tc main_v17) = _
  dsimp only [hostOps0]
  after_results
theorem entry0_wroot (c : Dev nD) :
    (V1 m ρ c main_v18 : Arr S64x64 .f32) = transposed (m ((c.tc : Thread nD τ).loc main_arg5)) := by
  show StableHlo.after hostOps0 (W0 m ρ c) (Proc.devRef .tc main_v18) = _
  dsimp only [hostOps0]
  after_results
theorem entry0_bias (c : Dev nD) :
    (V1 m ρ c main_v19 : Arr S1x64 .f32) = asRow (m ((c.tc : Thread nD τ).loc main_arg4)) := by
  show StableHlo.after hostOps0 (W0 m ρ c) (Proc.devRef .tc main_v19) = _
  dsimp only [hostOps0]
  after_results
  rfl

/-- The first kernel's result array is the first layer's output. -/
theorem first_layer (c : Dev nD) :
    (W2 m ρ c (Proc.devRef .tc main_v20) : Arr S100000x64 .f32) = conv (m ((c.tc : Thread nD τ).loc main_arg0))
      (srcOf (m ((c.tc : Thread nD τ).loc main_arg1))) (dstOf (m ((c.tc : Thread nD τ).loc main_arg1)))
      (m ((c.tc : Thread nD τ).loc main_arg2)) (m ((c.tc : Thread nD τ).loc main_arg3))
      (m ((c.tc : Thread nD τ).loc main_arg4)) (m ((c.tc : Thread nD τ).loc main_arg5)) := by
  refine (W2_arr m ρ c 5).trans ((result0 (V1 m ρ) c).trans ?_)
  show cell 100000 (V1 m ρ c main_v16) (V1 m ρ c main_arg0) (V1 m ρ c main_v17) (V1 m ρ c main_v18) (V1 m ρ c main_v19) = _
  rw [entry0_agg, entry0_feat, entry0_wrel, entry0_wroot, entry0_bias]
  rfl

/-! ## What the second kernel finds -/

/-- The first layer's output is untouched by the host operations between the kernels. -/
theorem entry1_feat (c : Dev nD) :
    (V3 m ρ c main_v20 : Arr S100000x64 .f32) = W2 m ρ c (Proc.devRef .tc main_v20) := by
  show StableHlo.after hostOps1 (W2 m ρ c) (Proc.devRef .tc main_v20) = _
  dsimp only [hostOps1]
  after_results

set_option maxHeartbeats 2000000 in
/-- The aggregate of the first layer's output, over the same edges with the same weights. -/
theorem entry1_agg (c : Dev nD) :
    (V3 m ρ c main_v33 : Arr S100000x64 .f32) = aggregate (W2 m ρ c (Proc.devRef .tc main_v20))
      (W2 m ρ c (Proc.devRef .tc main_v1)) (W2 m ρ c (Proc.devRef .tc main_v3)) (W2 m ρ c (Proc.devRef .tc main_arg2)) := by
  show StableHlo.after hostOps1 (W2 m ρ c) (Proc.devRef .tc main_v33) = _
  dsimp only [hostOps1]
  after_results_simp
  rfl

/-- The second layer's weights, transposed, and its bias as a row. -/
theorem entry1_wrel (c : Dev nD) :
    (V3 m ρ c main_v34 : Arr S64x64 .f32) = transposed (W2 m ρ c (Proc.devRef .tc main_arg6)) := by
  show StableHlo.after hostOps1 (W2 m ρ c) (Proc.devRef .tc main_v34) = _
  dsimp only [hostOps1]
  after_results
theorem entry1_wroot (c : Dev nD) :
    (V3 m ρ c main_v35 : Arr S64x64 .f32) = transposed (W2 m ρ c (Proc.devRef .tc main_arg8)) := by
  show StableHlo.after hostOps1 (W2 m ρ c) (Proc.devRef .tc main_v35) = _
  dsimp only [hostOps1]
  after_results
theorem entry1_bias (c : Dev nD) :
    (V3 m ρ c main_v36 : Arr S1x64 .f32) = asRow (W2 m ρ c (Proc.devRef .tc main_arg7)) := by
  show StableHlo.after hostOps1 (W2 m ρ c) (Proc.devRef .tc main_v36) = _
  dsimp only [hostOps1]
  after_results
  rfl

/-- The first kernel writes only its result array: the edges, the edge weights and the second layer's weights are
    as the first host operations left them. -/
theorem kept_src (c : Dev nD) : W2 m ρ c (Proc.devRef .tc main_v1) = W1 m ρ c (Proc.devRef .tc main_v1) :=
  W2_of_ne m ρ c main_v1 (by decide)
theorem kept_dst (c : Dev nD) : W2 m ρ c (Proc.devRef .tc main_v3) = W1 m ρ c (Proc.devRef .tc main_v3) :=
  W2_of_ne m ρ c main_v3 (by decide)
theorem kept_ew (c : Dev nD) : W2 m ρ c (Proc.devRef .tc main_arg2) = W1 m ρ c (Proc.devRef .tc main_arg2) :=
  W2_of_ne m ρ c main_arg2 (by decide)
theorem kept_w2rel (c : Dev nD) : W2 m ρ c (Proc.devRef .tc main_arg6) = W1 m ρ c (Proc.devRef .tc main_arg6) :=
  W2_of_ne m ρ c main_arg6 (by decide)
theorem kept_b2 (c : Dev nD) : W2 m ρ c (Proc.devRef .tc main_arg7) = W1 m ρ c (Proc.devRef .tc main_arg7) :=
  W2_of_ne m ρ c main_arg7 (by decide)
theorem kept_w2root (c : Dev nD) : W2 m ρ c (Proc.devRef .tc main_arg8) = W1 m ρ c (Proc.devRef .tc main_arg8) :=
  W2_of_ne m ρ c main_arg8 (by decide)

/-- The program's result buffer ends holding the two-layer network of the arguments. -/
theorem result_net (c : Dev nD) :
    (W4 m ρ c (Proc.devRef .tc main_v37) : Arr S100000x64 .f32) = net (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8)) := by
  refine (W4_arr m ρ c 5).trans ((result1 (V3 m ρ) c).trans ?_)
  show cell 100000 (V3 m ρ c main_v33) (V3 m ρ c main_v20) (V3 m ρ c main_v34) (V3 m ρ c main_v35) (V3 m ρ c main_v36) = _
  rw [entry1_agg, entry1_feat, entry1_wrel, entry1_wroot, entry1_bias, kept_src, kept_dst, kept_ew, kept_w2rel, kept_b2,
    kept_w2root, entry_src, entry_dst, entry_ew, entry_w2rel, entry_b2, entry_w2root, first_layer]
  rfl

end Cert.KernelIdeal.Layer

end
-- ==== Proof.RefLayer.lean ====
/-
  The reference program's result is the same two-layer network.
  The reference spells a layer on the host: the product of the aggregate with the transposed first weight
  matrix, plus the bias repeated down the rows, plus the product of the features with the transposed second
  weight matrix, and the maximum of that with zero. At row a and column b this is
      max( (Σ_k agg(a,k)·wrelT(k,b) + bias(b)) + Σ_k h(a,k)·wrootT(k,b) , 0 ),
  and the kernel's `cell` adds the same three terms with the bias last: addition of extended reals is commutative
  and associative, at infinite values too, so the two are equal with no hypothesis on the inputs. The reference's
  aggregate is the same host operations as the kernel program's, and its second layer is the first applied to the
  first layer's output.
-/
import proofs.«108997_j70153995813010_1_alg».proof.Proof.Gen.ReferenceIdeal.Read
import proofs.«108997_j70153995813010_1_alg».proof.Proof.GraphConv
import proofs.«108997_j70153995813010_1_alg».proof.Proof.LibPlainDot

noncomputable section

namespace Cert.ReferenceIdeal.RefValue

open Idealize.ShloMosaic Idealize.ShloMosaic.ValueIdx
open Cert.ReferenceIdeal Cert.ReferenceIdeal.Gen Cert.ReferenceIdeal.Read
open Cert.KernelIdeal.Layer (Arr cell aggregate srcOf dstOf transposed asRow conv net)

/-- The reference's matrix product is the plain [100000,64] by [64,64] one. -/
theorem dot_plain : dot_S100000x64_S64x64_S100000x64_1_0_0_1_n_n = DotDims.plain 100000 64 64 := rfl

/-- The bias, made a one-row matrix and repeated down the rows, reads at (a, b) what the kernel's bias row reads
    at (0, b): the bias at b. -/
theorem bias_at (b : Arr S64 .f32) (i : S100000x64.Idx) :
    val_main_v20 (F := Ideal) b i = asRow b (ix2 (0 : Fin 1) (i 1)) := by
  rw [val_main_v20_apply, val_main_v19_apply]
  exact ((shapeCast_addUnit_apply ![64] b _ (ix2 (0 : Fin 1) (i 1))).trans
    (congrArg b (funext fun a => match a with | ⟨0, _⟩ => rfl))).symm

/-- A layer as the reference spells it on the host is `cell` of the same five arrays. -/
theorem host_layer (agg h : FVec Ideal S100000x64 .f32) (wT w'T : FVec Ideal S64x64 .f32) (b : FVec Ideal S64 .f32) :
    maximumf (F := Ideal) (addf (F := Ideal) (addf (F := Ideal) (Host.dotGeneral (F := Ideal) dot_S100000x64_S64x64_S100000x64_1_0_0_1_n_n none agg wT) (val_main_v20 (F := Ideal) b))
        (Host.dotGeneral (F := Ideal) dot_S100000x64_S64x64_S100000x64_1_0_0_1_n_n none h w'T)) (val_main_call0_v0 (F := Ideal))
      = cell 100000 agg h wT w'T (asRow b) := by
  funext i
  unfold cell
  rw [maximumf_apply, addf_apply, addf_apply, bias_at, val_main_call0_v0_apply, val_main_call0_cst_apply, dot_plain,
    Cert.LibPlainDot.dotGeneral_plain, Cert.LibPlainDot.dotGeneral_plain, add_right_comm]
  exact congrArg (max _) Ideal.ofBits_zero_f32

/-- The reference's first aggregate is the kernel program's. -/
theorem agg_first (x0 : Arr S100000x64 .f32) (x1 : Arr S2x1600000 .i32) (x2 : Arr S1600000 .f32) :
    val_main_v16 (F := Ideal) x0 x1 x2 = aggregate x0 (srcOf x1) (dstOf x1) x2 := rfl

/-- The reference's first layer. -/
theorem first_layer (x0 : Arr S100000x64 .f32) (x1 : Arr S2x1600000 .i32) (x2 : Arr S1600000 .f32)
    (x3 : Arr S64x64 .f32) (x4 : Arr S64 .f32) (x5 : Arr S64x64 .f32) :
    val_main_v25 (F := Ideal) x0 x1 x2 x3 x4 x5 = conv x0 (srcOf x1) (dstOf x1) x2 x3 x4 x5 := by
  have e : val_main_v25 (F := Ideal) x0 x1 x2 x3 x4 x5
      = maximumf (F := Ideal) (addf (F := Ideal) (addf (F := Ideal) (Host.dotGeneral (F := Ideal) dot_S100000x64_S64x64_S100000x64_1_0_0_1_n_n none (val_main_v16 (F := Ideal) x0 x1 x2) (val_main_v17 (F := Ideal) x3))
          (val_main_v20 (F := Ideal) x4)) (Host.dotGeneral (F := Ideal) dot_S100000x64_S64x64_S100000x64_1_0_0_1_n_n none x0 (val_main_v22 (F := Ideal) x5)))
          (val_main_call0_v0 (F := Ideal)) := rfl
  rw [e, host_layer, agg_first]
  rfl

/-- The reference's second aggregate is the kernel program's, of the first layer's output. -/
theorem agg_second (x0 : Arr S100000x64 .f32) (x1 : Arr S2x1600000 .i32) (x2 : Arr S1600000 .f32)
    (x3 : Arr S64x64 .f32) (x4 : Arr S64 .f32) (x5 : Arr S64x64 .f32) :
    val_main_v38 (F := Ideal) x0 x1 x2 x3 x4 x5 = aggregate (val_main_v25 (F := Ideal) x0 x1 x2 x3 x4 x5) (srcOf x1) (dstOf x1) x2 := rfl

/-- The reference's result: the second layer applied to the first layer's output. -/
theorem second_layer (x0 : Arr S100000x64 .f32) (x1 : Arr S2x1600000 .i32) (x2 : Arr S1600000 .f32)
    (x3 : Arr S64x64 .f32) (x4 : Arr S64 .f32) (x5 x6 : Arr S64x64 .f32) (x7 : Arr S64 .f32) (x8 : Arr S64x64 .f32) :
    val_main_v47 (F := Ideal) x0 x1 x2 x3 x4 x5 x6 x7 x8 = net x0 x1 x2 x3 x4 x5 x6 x7 x8 := by
  have e : val_main_v47 (F := Ideal) x0 x1 x2 x3 x4 x5 x6 x7 x8
      = maximumf (F := Ideal) (addf (F := Ideal) (addf (F := Ideal) (Host.dotGeneral (F := Ideal) dot_S100000x64_S64x64_S100000x64_1_0_0_1_n_n none (val_main_v38 (F := Ideal) x0 x1 x2 x3 x4 x5) (val_main_v39 (F := Ideal) x6))
          (val_main_v20 (F := Ideal) x7)) (Host.dotGeneral (F := Ideal) dot_S100000x64_S64x64_S100000x64_1_0_0_1_n_n none (val_main_v25 (F := Ideal) x0 x1 x2 x3 x4 x5) (val_main_v44 (F := Ideal) x8)))
          (val_main_call0_v0 (F := Ideal)) := rfl
  rw [e, host_layer, agg_second, first_layer]
  rfl

end Cert.ReferenceIdeal.RefValue

end
-- ==== Proof.lean ====
/-
  Two graph-convolution layers: the kernel program against the plain reference, over the extended reals.

  Both programs compute, from node features x [100000, 64], an edge list [2, 1600000], edge weights and two
  layers' weights and biases, the network
      h1 = layer(x; w1_rel, b1, w1_root),   result = layer(h1; w2_rel, b2, w2_root),
      layer(h; w_rel, b, w_root)(a, b') = max( Σ_k agg(a,k)·w_rel(b',k) + Σ_k h(a,k)·w_root(b',k) + b(b') , 0 ),
  where agg is the aggregate of h over the edges (gathered at the sources, scaled by the edge weights, added into
  the destinations' rows). Both compute the aggregate by the same host operations. The kernel program then
  runs the dense part of each layer as a kernel over five blocks of 20000 rows, adding the bias after the two
  products; the reference runs it on the host over the whole arrays, adding the bias between the two products.
  On the extended reals the two orders of addition agree for all values, so the claim needs no finiteness of
  the inputs: the precondition is never opened.

  The three frames: each kernel program's is the generated frame certificate; the reference has no kernel, and its
  frame is its run with the result dropped. The idealized kernel program is the printed one read at the ideal
  values with no rewrite, so the preservation claim is trivial. For the value claim, the kernel program's run
  ends with its result buffer at `net` of the arguments (LayerRun, LayerHost over LayerBlocks0/1 and
  EpilogueCell), the reference's run ends at its stage `val_main_v47` of the arguments, which is the same `net`
  (RefLayer), and the two programs are launched on equal arguments.
-/
import proofs.«108997_j70153995813010_1_alg».proof.Defs
import proofs.«108997_j70153995813010_1_alg».proof.Proof.Gen.Kernel
import proofs.«108997_j70153995813010_1_alg».proof.Proof.Gen.Kernel.Skeleton
import proofs.«108997_j70153995813010_1_alg».proof.Proof.Gen.Kernel.Launch
import proofs.«108997_j70153995813010_1_alg».proof.Proof.Gen.Kernel.Points
import proofs.«108997_j70153995813010_1_alg».proof.Proof.Gen.Kernel.Frame
import proofs.«108997_j70153995813010_1_alg».proof.Proof.Gen.KernelIdeal
import proofs.«108997_j70153995813010_1_alg».proof.Proof.Gen.KernelIdeal.Skeleton
import proofs.«108997_j70153995813010_1_alg».proof.Proof.Gen.KernelIdeal.Launch
import proofs.«108997_j70153995813010_1_alg».proof.Proof.Gen.KernelIdeal.Points
import proofs.«108997_j70153995813010_1_alg».proof.Proof.Gen.KernelIdeal.Frame
import proofs.«108997_j70153995813010_1_alg».proof.Proof.Gen.ReferenceIdeal
import proofs.«108997_j70153995813010_1_alg».proof.Proof.Gen.Pre_finite_inputs
import proofs.«108997_j70153995813010_1_alg».proof.Proof.Gen.ReferenceIdeal.Run
import proofs.«108997_j70153995813010_1_alg».proof.Proof.Gen.ReferenceIdeal.Read
import proofs.«108997_j70153995813010_1_alg».proof.Proof.LayerRun
import proofs.«108997_j70153995813010_1_alg».proof.Proof.LayerHost
import proofs.«108997_j70153995813010_1_alg».proof.Proof.RefLayer
import Idealize.ShloMosaic.Adequacy
import Idealize.ShloMosaic.Init

noncomputable section

namespace Cert.Proof

open Idealize.ShloMosaic Idealize.SL.Sem

/-- The kernel program at the machine's values runs and keeps its arguments. -/
theorem frame_kernel : Cert.frame_Kernel := fun m ρ _ => Cert.Kernel.Gen.frame m ρ

/-- So does the kernel program at the ideal values. -/
theorem frame_kernel_ideal : Cert.frame_KernelIdeal := fun m ρ _ => Cert.KernelIdeal.Gen.frame m ρ

/-- The reference is host operations only: its run, with the result's value dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- Launched on equal arguments, the two programs end with equal results: both are `net` of the arguments. -/
theorem algebraic : Cert.algebraic_KernelIdeal_ReferenceIdeal := by
  intro m ρ m' ρ' _ hagree
  refine ⟨fun c => Cert.KernelIdeal.Layer.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · -- the kernel program: its result buffer at the last boundary's contents, which is `net` of the arguments
    exact (θ_run Cert.KernelIdeal.defs _ _).mono
      (fun _ h c => ⟨(h c).1.trans (Cert.KernelIdeal.Layer.result_net m ρ c), (h c).2⟩)
      (Cert.KernelIdeal.Layer.run_named (F := Ideal) m ρ)
  · -- the reference: its result at its last stage of ITS arguments, which are the kernel program's
    refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v47_eq, Cert.ReferenceIdeal.RefValue.second_layer, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
